-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S384x128 : Shape := ⟨2, ![384, 128]⟩
abbrev S384x80 : Shape := ⟨2, ![384, 80]⟩
abbrev S_ : Shape := ⟨0, ![]⟩

class Facts : Prop where
  bcast_S_S384x128 : S_.BroadcastsInDim S384x128 (![] : Fin 0 → Fin S384x128.rank)
  reducesTo_S384x128_S_d0_1 : S384x128.ReducesTo [0, 1] S_
  h_S_ : 0 < S_.numel

variable [Facts]

def fn {F : FTy → Type} [FloatOps F] (main_arg0 : FVec F S384x128 .f32) (main_arg1 : IVec S384x80 32) : IVec S_ 1 :=
  let main_v0 : FVec F S384x128 .f32 := Host.absf main_arg0
  let main_cst : FVec F S_ .f32 := constant S_ .f32 0x7F800000#32
  let main_v1 : FVec F S384x128 .f32 := broadcastInDim S384x128 ![] bcast_S_S384x128 main_cst
  let main_v2 : IVec S384x128 1 := cmpf .olt main_v0 main_v1
  let main_c : IVec S_ 1 := constantI S_ 1 1#1
  let main_v3 : IVec S_ 1 := (fun x v => Host.reduce IntOp.andi x v reducesTo_S384x128_S_d0_1 h_S_) main_v2 main_c
  main_v3
-- ==== Kernel.lean ====
abbrev S384x128 : Shape := ⟨2, ![384, 128]⟩
abbrev S384x80 : Shape := ⟨2, ![384, 80]⟩
abbrev S128x384 : Shape := ⟨2, ![128, 384]⟩
abbrev S384x384 : Shape := ⟨2, ![384, 384]⟩
abbrev S80x384 : Shape := ⟨2, ![80, 384]⟩
abbrev S_ : Shape := ⟨0, ![]⟩
abbrev S384 : Shape := ⟨1, ![384]⟩
abbrev S384x1 : Shape := ⟨2, ![384, 1]⟩
abbrev S32x384 : Shape := ⟨2, ![32, 384]⟩
abbrev S32x1 : Shape := ⟨2, ![32, 1]⟩
abbrev S32x128 : Shape := ⟨2, ![32, 128]⟩
abbrev S32x384x1 : Shape := ⟨3, ![32, 384, 1]⟩
abbrev S32x1x128 : Shape := ⟨3, ![32, 1, 128]⟩
abbrev S32x384x128 : Shape := ⟨3, ![32, 384, 128]⟩
abbrev S32 : Shape := ⟨1, ![32]⟩

abbrev nBuf : Space → Nat
  | .hbm => 54
  | .vmem => 6
  | .smem => 0
  | _ => 0

abbrev bufTy : (tb : Table) → Fin (tcTables nBuf tb) → BufTy
  | .hbm, ⟨0, _⟩ => ⟨S384x128, .f32⟩
  | .hbm, ⟨1, _⟩ => ⟨S384x80, .i32⟩
  | .hbm, ⟨2, _⟩ => ⟨S384x80, .f32⟩
  | .hbm, ⟨3, _⟩ => ⟨S128x384, .f32⟩
  | .hbm, ⟨4, _⟩ => ⟨S384x384, .f32⟩
  | .hbm, ⟨5, _⟩ => ⟨S80x384, .f32⟩
  | .hbm, ⟨6, _⟩ => ⟨S384x384, .f32⟩
  | .hbm, ⟨7, _⟩ => ⟨S_, .f32⟩
  | .hbm, ⟨8, _⟩ => ⟨S384x384, .f32⟩
  | .hbm, ⟨9, _⟩ => ⟨S384x384, .i1⟩
  | .hbm, ⟨10, _⟩ => ⟨S384x384, .f32⟩
  | .hbm, ⟨11, _⟩ => ⟨S_, .f32⟩
  | .hbm, ⟨12, _⟩ => ⟨S384, .f32⟩
  | .hbm, ⟨13, _⟩ => ⟨S_, .f32⟩
  | .hbm, ⟨14, _⟩ => ⟨S384x384, .f32⟩
  | .hbm, ⟨15, _⟩ => ⟨S384x384, .f32⟩
  | .hbm, ⟨16, _⟩ => ⟨S_, .f32⟩
  | .hbm, ⟨17, _⟩ => ⟨S384, .f32⟩
  | .hbm, ⟨18, _⟩ => ⟨S384, .f32⟩
  | .hbm, ⟨19, _⟩ => ⟨S_, .f32⟩
  | .hbm, ⟨20, _⟩ => ⟨S384, .f32⟩
  | .hbm, ⟨21, _⟩ => ⟨S384, .i1⟩
  | .hbm, ⟨22, _⟩ => ⟨S384x1, .f32⟩
  | .hbm, ⟨23, _⟩ => ⟨S384, .f32⟩
  | .hbm, ⟨24, _⟩ => ⟨S_, .f32⟩
  | .hbm, ⟨25, _⟩ => ⟨S_, .f32⟩
  | .hbm, ⟨26, _⟩ => ⟨S384, .f32⟩
  | .hbm, ⟨27, _⟩ => ⟨S384, .f32⟩
  | .hbm, ⟨28, _⟩ => ⟨S384, .f32⟩
  | .hbm, ⟨29, _⟩ => ⟨S384, .i32⟩
  | .hbm, ⟨30, _⟩ => ⟨S_, .i32⟩
  | .hbm, ⟨31, _⟩ => ⟨S_, .i32⟩
  | .hbm, ⟨32, _⟩ => ⟨S_, .f32⟩
  | .hbm, ⟨33, _⟩ => ⟨S_, .f32⟩
  | .hbm, ⟨34, _⟩ => ⟨S_, .i1⟩
  | .hbm, ⟨35, _⟩ => ⟨S384, .f32⟩
  | .hbm, ⟨36, _⟩ => ⟨S384, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S384x128, .f32⟩
  | .hbm, ⟨45, _⟩ => ⟨S384x128, .f32⟩
  | .hbm, ⟨46, _⟩ => ⟨S384x128, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .local _ .vmem, ⟨0, _⟩ => ⟨S32x384, .f32⟩
  | .local _ .vmem, ⟨1, _⟩ => ⟨S32x384, .f32⟩
  | .local _ .vmem, ⟨2, _⟩ => ⟨S32x384, .f32⟩
  | .local _ .vmem, ⟨3, _⟩ => ⟨S32x384, .f32⟩
  | .local _ .vmem, ⟨4, _⟩ => ⟨S32x1, .f32⟩
  | .local _ .vmem, ⟨5, _⟩ => ⟨S32x1, .f32⟩
  | _, _ => ⟨S384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S384x128_S128x384_1_0 : S384x128.Transposes [1, 0] S128x384
  transposes_S384x80_S80x384_1_0 : S384x80.Transposes [1, 0] S80x384
  bcast_S_S384x384 : S_.BroadcastsInDim S384x384 (![] : Fin 0 → Fin S384x384.rank)
  reducesTo_S384x384_S384_d1 : S384x384.ReducesTo [1] S384
  h_S_ : 0 < S_.numel
  bcast_S_S384 : S_.BroadcastsInDim S384 (![] : Fin 0 → Fin S384.rank)
  inb_S32x384_S32x384_0_0 : ∀ a, (![0, 0] : Fin 2 → Nat) a + S32x384.size a ≤ S32x384.size a
  h_S32x384 : 0 < S32x384.numel
  shapeCasts_S32x384_S32x384 : S32x384.ShapeCasts S32x384
  slices_S32x384_o0_0_S32x128 : S32x384.Slices ![0, 0] S32x128
  shapeCasts_S32x384_S32x384x1 : S32x384.ShapeCasts S32x384x1
  shapeCasts_S32x128_S32x1x128 : S32x128.ShapeCasts S32x1x128
  broadcasts_S32x384x1_S32x384x128 : S32x384x1.Broadcasts S32x384x128
  broadcasts_S32x1x128_S32x384x128 : S32x1x128.Broadcasts S32x384x128
  reduces_S32x384x128_S32x384 : S32x384x128.Reduces [2] S32x384
  slices_S32x384_o0_128_S32x128 : S32x384.Slices ![0, 128] S32x128
  slices_S32x384_o0_256_S32x128 : S32x384.Slices ![0, 256] S32x128
  reduces_S32x384_S32 : S32x384.Reduces [1] S32
  shapeCasts_S32_S32x1 : S32.ShapeCasts S32x1
  inb_S32x1_S32x1_0_0 : ∀ a, (![0, 0] : Fin 2 → Nat) a + S32x1.size a ≤ S32x1.size a
  h_S32x1 : 0 < S32x1.numel
  shapeCasts_S384x1_S384 : S384x1.ShapeCasts S384
  natLt_1_32 : 1 < 32
  reducesTo_S384_S_d0 : S384.ReducesTo [0] S_
  reducesTo_S384x128_S_d0_1 : S384x128.ReducesTo [0, 1] S_
  dot_S384x128_S128x384_S384x384_1_0_0_1_n_n_wf : DotDims.WF S384x128 S128x384 S384x384 [1] [0] [0] [1] [] []
  dot_S384x80_S80x384_S384x384_1_0_0_1_n_n_wf : DotDims.WF S384x80 S80x384 S384x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x384.size a ≤ S384x384.size a
  hwx0_0 : ∀ i : grid0.Coords, EltTy.bits .f32 = 32 ∨ (Rect.block (s := S384x384) S32x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x384.size a ≤ S384x384.size a
  hwx0_1 : ∀ i : grid0.Coords, EltTy.bits .f32 = 32 ∨ (Rect.block (s := S384x384) S32x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S384x1.size a
  hwx0_2 : ∀ i : grid0.Coords, EltTy.bits .f32 = 32 ∨ (Rect.block (s := S384x1) S32x1.size (cc0_transform_2 i) (hinb0_2 i)).WholeWords (EltTy.packing .f32)

variable [Facts₀]

def dot_S384x128_S128x384_S384x384_1_0_0_1_n_n : DotDims S384x128 S128x384 S384x384 where
  lhsContracting := [1]
  rhsContracting := [0]
  lhsNonContracting := [0]
  rhsNonContracting := [1]
  lhsBatch := []
  rhsBatch := []
  wf := dot_S384x128_S128x384_S384x384_1_0_0_1_n_n_wf
def dot_S384x80_S80x384_S384x384_1_0_0_1_n_n : DotDims S384x80 S80x384 S384x384 where
  lhsContracting := [1]
  rhsContracting := [0]
  lhsNonContracting := [0]
  rhsNonContracting := [1]
  lhsBatch := []
  rhsBatch := []
  wf := dot_S384x80_S80x384_S384x384_1_0_0_1_n_n_wf

abbrev win0_0 : Pipeline.Window sig grid0 :=
  Pipeline.Window.ofSpec (Memref.whole main_v2) S32x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S32x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S32x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S384x128 : Shape := ⟨2, ![384, 128]⟩
abbrev S384x80 : Shape := ⟨2, ![384, 80]⟩
abbrev S128x384 : Shape := ⟨2, ![128, 384]⟩
abbrev S384x384 : Shape := ⟨2, ![384, 384]⟩
abbrev S80x384 : Shape := ⟨2, ![80, 384]⟩
abbrev S_ : Shape := ⟨0, ![]⟩
abbrev S384x384x1 : Shape := ⟨3, ![384, 384, 1]⟩
abbrev S384x1x384 : Shape := ⟨3, ![384, 1, 384]⟩
abbrev S384x384x384 : Shape := ⟨3, ![384, 384, 384]⟩
abbrev S384 : Shape := ⟨1, ![384]⟩

abbrev nBuf : Space → Nat
  | .hbm => 91
  | .vmem => 0
  | .smem => 0
  | _ => 0

abbrev bufTy : (tb : Table) → Fin (tcTables nBuf tb) → BufTy
  | .hbm, ⟨0, _⟩ => ⟨S384x128, .f32⟩
  | .hbm, ⟨1, _⟩ => ⟨S384x80, .i32⟩
  | .hbm, ⟨2, _⟩ => ⟨S384x80, .f32⟩
  | .hbm, ⟨3, _⟩ => ⟨S128x384, .f32⟩
  | .hbm, ⟨4, _⟩ => ⟨S384x384, .f32⟩
  | .hbm, ⟨5, _⟩ => ⟨S80x384, .f32⟩
  | .hbm, ⟨6, _⟩ => ⟨S384x384, .f32⟩
  | .hbm, ⟨7, _⟩ => ⟨S_, .f32⟩
  | .hbm, ⟨8, _⟩ => ⟨S384x384, .f32⟩
  | .hbm, ⟨9, _⟩ => ⟨S384x384, .i1⟩
  | .hbm, ⟨10, _⟩ => ⟨S384x384, .f32⟩
  | .hbm, ⟨11, _⟩ => ⟨S_, .f32⟩
  | .hbm, ⟨12, _⟩ => ⟨S384x384, .f32⟩
  | .hbm, ⟨13, _⟩ => ⟨S384x384, .f32⟩
  | .hbm, ⟨14, _⟩ => ⟨S384x384x1, .f32⟩
  | .hbm, ⟨15, _⟩ => ⟨S384x1x384, .f32⟩
  | .hbm, ⟨16, _⟩ => ⟨S384x384x384, .f32⟩
  | .hbm, ⟨17, _⟩ => ⟨S384x384x384, .f32⟩
  | .hbm, ⟨18, _⟩ => ⟨S384x384x384, .f32⟩
  | .hbm, ⟨19, _⟩ => ⟨S_, .f32⟩
  | .hbm, ⟨20, _⟩ => ⟨S384x384x384, .f32⟩
  | .hbm, ⟨21, _⟩ => ⟨S384x384x384, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S384x384x384, .f32⟩
  | .hbm, ⟨26, _⟩ => ⟨S384x384x384, .f32⟩
  | .hbm, ⟨27, _⟩ => ⟨S_, .f32⟩
  | .hbm, ⟨28, _⟩ => ⟨S384x384x384, .f32⟩
  | .hbm, ⟨29, _⟩ => ⟨S384x384x384, .f32⟩
  | .hbm, ⟨30, _⟩ => ⟨S384x384x384, .f32⟩
  | .hbm, ⟨31, _⟩ => ⟨S_, .f32⟩
  | .hbm, ⟨32, _⟩ => ⟨S384x384x384, .f32⟩
  | .hbm, ⟨33, _⟩ => ⟨S384x384x384, .f32⟩
  | .hbm, ⟨34, _⟩ => ⟨S384x384x384, .f32⟩
  | .hbm, ⟨35, _⟩ => ⟨S384x384x384, .f32⟩
  | .hbm, ⟨36, _⟩ => ⟨S384x384x384, .i1⟩
  | .hbm, ⟨37, _⟩ => ⟨S384x384x384, .f32⟩
  | .hbm, ⟨38, _⟩ => ⟨S384x384x384, .f32⟩
  | .hbm, ⟨39, _⟩ => ⟨S384x384x384, .f32⟩
  | .hbm, ⟨40, _⟩ => ⟨S384x384x384, .f32⟩
  | .hbm, ⟨41, _⟩ => ⟨S384x384x384, .f32⟩
  | .hbm, ⟨42, _⟩ => ⟨S384x384x384, .f32⟩
  | .hbm, ⟨43, _⟩ => ⟨S384x384x384, .f32⟩
  | .hbm, ⟨44, _⟩ => ⟨S384x384x384, .f32⟩
  | .hbm, ⟨45, _⟩ => ⟨S384x384x1, .f32⟩
  | .hbm, ⟨46, _⟩ => ⟨S384x1x384, .f32⟩
  | .hbm, ⟨47, _⟩ => ⟨S384x384x384, .f32⟩
  | .hbm, ⟨48, _⟩ => ⟨S384x384x384, .f32⟩
  | .hbm, ⟨49, _⟩ => ⟨S384x384x384, .f32⟩
  | .hbm, ⟨50, _⟩ => ⟨S_, .f32⟩
  | .hbm, ⟨51, _⟩ => ⟨S384, .f32⟩
  | .hbm, ⟨52, _⟩ => ⟨S_, .f32⟩
  | .hbm, ⟨53, _⟩ => ⟨S384, .f32⟩
  | .hbm, ⟨54, _⟩ => ⟨S384, .f32⟩
  | .hbm, ⟨55, _⟩ => ⟨S_, .f32⟩
  | .hbm, ⟨56, _⟩ => ⟨S384, .f32⟩
  | .hbm, ⟨57, _⟩ => ⟨S384, .i1⟩
  | .hbm, ⟨58, _⟩ => ⟨S384x384x384, .f32⟩
  | .hbm, ⟨59, _⟩ => ⟨S_, .f32⟩
  | .hbm, ⟨60, _⟩ => ⟨S384, .f32⟩
  | .hbm, ⟨61, _⟩ => ⟨S_, .f32⟩
  | .hbm, ⟨62, _⟩ => ⟨S_, .f32⟩
  | .hbm, ⟨63, _⟩ => ⟨S384, .f32⟩
  | .hbm, ⟨64, _⟩ => ⟨S384, .f32⟩
  | .hbm, ⟨65, _⟩ => ⟨S384, .f32⟩
  | .hbm, ⟨66, _⟩ => ⟨S384, .i32⟩
  | .hbm, ⟨67, _⟩ => ⟨S_, .i32⟩
  | .hbm, ⟨68, _⟩ => ⟨S_, .i32⟩
  | .hbm, ⟨69, _⟩ => ⟨S_, .f32⟩
  | .hbm, ⟨70, _⟩ => ⟨S_, .f32⟩
  | .hbm, ⟨71, _⟩ => ⟨S_, .i1⟩
  | .hbm, ⟨72, _⟩ => ⟨S384, .f32⟩
  | .hbm, ⟨73, _⟩ => ⟨S384, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S384x128, .f32⟩
  | .hbm, ⟨82, _⟩ => ⟨S384x128, .f32⟩
  | .hbm, ⟨83, _⟩ => ⟨S384x128, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v17 : Ref sig .tc := ⟨.hbm, 29, rfl⟩
abbrev main_v18 : Ref sig .tc := ⟨.hbm, 30, rfl⟩
abbrev main_call1_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_4 : Ref sig .tc := ⟨.hbm, 50, rfl⟩
abbrev main_v25 : Ref sig .tc := ⟨.hbm, 51, rfl⟩
abbrev main_cst_5 : Ref sig .tc := ⟨.hbm, 52, rfl⟩
abbrev main_v26 : Ref sig .tc := ⟨.hbm, 53, rfl⟩
abbrev main_v27 : Ref sig .tc := ⟨.hbm, 54, rfl⟩
abbrev main_cst_6 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_7 : Ref sig .tc := ⟨.hbm, 59, rfl⟩
abbrev main_v31 : Ref sig .tc := ⟨.hbm, 60, rfl⟩
abbrev main_cst_8 : Ref sig .tc := ⟨.hbm, 61, rfl⟩
abbrev main_call2_v0 : Ref sig .tc := ⟨.hbm, 62, rfl⟩
abbrev main_call2_v1 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_c : Ref sig .tc := ⟨.hbm, 67, rfl⟩
abbrev main_v35 : Ref sig .tc := ⟨.hbm, 68, rfl⟩
abbrev main_v36 : Ref sig .tc := ⟨.hbm, 69, rfl⟩
abbrev main_cst_9 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_10 : Ref sig .tc := ⟨.hbm, 74, rfl⟩
abbrev main_v40 : Ref sig .tc := ⟨.hbm, 75, rfl⟩
abbrev main_cst_11 : Ref sig .tc := ⟨.hbm, 76, rfl⟩
abbrev main_v41 : Ref sig .tc := ⟨.hbm, 77, rfl⟩
abbrev main_v42 : Ref sig .tc := ⟨.hbm, 78, rfl⟩
abbrev main_cst_12 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_13 : Ref sig .tc := ⟨.hbm, 84, rfl⟩
abbrev main_v47 : Ref sig .tc := ⟨.hbm, 85, rfl⟩
abbrev main_cst_14 : Ref sig .tc := ⟨.hbm, 86, rfl⟩
abbrev main_v48 : Ref sig .tc := ⟨.hbm, 87, rfl⟩
abbrev main_cst_15 : Ref sig .tc := ⟨.hbm, 88, rfl⟩
abbrev main_v49 : Ref sig .tc := ⟨.hbm, 89, rfl⟩
abbrev main_v50 : Ref sig .tc := ⟨.hbm, 90, rfl⟩

abbrev nD : Nat := 1
abbrev τ : Topo := Topo.v7x

variable {F : FTy → Type} [FloatOps F]

class Facts₀ : Prop where
  transposes_S384x128_S128x384_1_0 : S384x128.Transposes [1, 0] S128x384
  transposes_S384x80_S80x384_1_0 : S384x80.Transposes [1, 0] S80x384
  bcast_S_S384x384 : S_.BroadcastsInDim S384x384 (![] : Fin 0 → Fin S384x384.rank)
  bcast_S384x384_S384x384x1_0_1 : S384x384.BroadcastsInDim S384x384x1 (![0, 1] : Fin 2 → Fin S384x384x1.rank)
  bcast_S384x384_S384x1x384_0_2 : S384x384.BroadcastsInDim S384x1x384 (![0, 2] : Fin 2 → Fin S384x1x384.rank)
  bcast_S384x384x1_S384x384x384_0_1_2 : S384x384x1.BroadcastsInDim S384x384x384 (![0, 1, 2] : Fin 3 → Fin S384x384x384.rank)
  bcast_S384x1x384_S384x384x384_0_1_2 : S384x1x384.BroadcastsInDim S384x384x384 (![0, 1, 2] : Fin 3 → Fin S384x384x384.rank)
  bcast_S_S384x384x384 : S_.BroadcastsInDim S384x384x384 (![] : Fin 0 → Fin S384x384x384.rank)
  reducesTo_S384x384_S384_d1 : S384x384.ReducesTo [1] S384
  h_S_ : 0 < S_.numel
  bcast_S_S384 : S_.BroadcastsInDim S384 (![] : Fin 0 → Fin S384.rank)
  reducesTo_S384x384x384_S384_d1_2 : S384x384x384.ReducesTo [1, 2] S384
  natLt_1_32 : 1 < 32
  reducesTo_S384_S_d0 : S384.ReducesTo [0] S_
  reducesTo_S384x128_S_d0_1 : S384x128.ReducesTo [0, 1] S_
  dot_S384x128_S128x384_S384x384_1_0_0_1_n_n_wf : DotDims.WF S384x128 S128x384 S384x384 [1] [0] [0] [1] [] []
  dot_S384x80_S80x384_S384x384_1_0_0_1_n_n_wf : DotDims.WF S384x80 S80x384 S384x384 [1] [0] [0] [1] [] []

variable [Facts₀]

def dot_S384x128_S128x384_S384x384_1_0_0_1_n_n : DotDims S384x128 S128x384 S384x384 where
  lhsContracting := [1]
  rhsContracting := [0]
  lhsNonContracting := [0]
  rhsNonContracting := [1]
  lhsBatch := []
  rhsBatch := []
  wf := dot_S384x128_S128x384_S384x384_1_0_0_1_n_n_wf
def dot_S384x80_S80x384_S384x384_1_0_0_1_n_n : DotDims S384x80 S80x384 S384x384 where
  lhsContracting := [1]
  rhsContracting := [0]
  lhsNonContracting := [0]
  rhsNonContracting := [1]
  lhsBatch := []
  rhsBatch := []
  wf := dot_S384x80_S80x384_S384x384_1_0_0_1_n_n_wf

class Facts : Prop extends Facts₀ where

variable [Facts]
-- ==== Proof.LibGroupedSum.lean ====
/-
  Grouping a finite sum.

  A sum over `K = J * B` consecutive coordinates equals the sum, over the `J` groups of `B` consecutive
  coordinates, of each group's sum: coordinate `kk` of group `s` is the coordinate `s * B + kk` of the whole range.
  Only associativity and commutativity of the addition enter, so the law holds in any commutative additive monoid —
  in particular on the extended reals, with no finiteness assumption.
-/
import Idealize.ShloMosaic.Lib.ValueIdx

namespace GroupedSum

/-- Coordinate `kk` of group `s` lies below `K = J * B`. -/
theorem group_lt {J B K : ℕ} (h : J * B = K) (s : Fin J) (kk : Fin B) : s.val * B + kk.val < K := by
  have h1 : s.val * B + kk.val < (s.val + 1) * B := by
    rw [Nat.succ_mul]; exact Nat.add_lt_add_left kk.isLt _
  have h2 : (s.val + 1) * B ≤ J * B := Nat.mul_le_mul_right B s.isLt
  rw [← h]; exact lt_of_lt_of_le h1 h2

/-- The sum over the whole range is the sum of the groups' sums. -/
theorem sum_groups {β : Type*} [AddCommMonoid β] {J B K : ℕ} (h : J * B = K) (f : Fin K → β) :
    ∑ k : Fin K, f k = ∑ s : Fin J, ∑ kk : Fin B, f ⟨s.val * B + kk.val, group_lt h s kk⟩ := by
  subst h
  rw [← Equiv.sum_comp finProdFinEquiv f, Fintype.sum_prod_type]
  refine Finset.sum_congr rfl fun s _ => Finset.sum_congr rfl fun kk _ => congrArg f (Fin.ext ?_)
  show kk.val + B * s.val = s.val * B + kk.val
  rw [Nat.mul_comm, Nat.add_comm]

end GroupedSum
-- ==== Proof.TripletLaw.lean ====
/-
  The triplet ranking loss of one row, on the extended reals, and the two ways of summing it.

  For a row of inner products `u` and a row of similarity flags `p` (each `0` or `1`), the loss of the row is the sum over
  the pairs `(i, j)` of `sp (u i) (u j)` weighted by `p i * (1 - p j)`, where `sp a b` is the softplus of the negated
  margin `a - b - 1/2` clipped to `[-100, 50]`. One program sums the weighted terms over all pairs at once; the other
  sums, for each `i`, the terms weighted by `1 - p j` over three consecutive groups of 128 columns `j` and multiplies
  the total by `p i` afterwards. The two agree because a flag is `0` or `1`: on the extended reals `x * 0 = 0` and
  `x * 1 = x` for every `x`, infinite ones included, so the factor `p i` moves across the inner sum with no
  finiteness assumption; regrouping a sum needs only that addition is associative and commutative.

  The softplus is written by both programs as `max z 0 + log1p (exp (-|z - 0|))` behind a test `z - 0 ≠ z - 0` (true of
  a NaN only); on the extended reals nothing differs from itself, so the test always fails and the other arm is taken.
-/
import Idealize.ShloMosaic.PureOps.Ideal.Laws
import Idealize.ShloMosaic.Lib.ValueIdx
import proofs.«131904_j48189533061230_2_alg».proof.Proof.LibGroupedSum

noncomputable section

namespace TripletLoss

open Idealize.ShloMosaic Idealize.ShloMosaic.ValueIdx

/-- The f32 words both programs spell: `0`, `1`, `1/2`, `-100`, `50`. -/
abbrev zeroW : EReal := Ideal.ofBits .f32 0x00000000#32
abbrev oneW : EReal := Ideal.ofBits .f32 0x3F800000#32
abbrev halfW : EReal := Ideal.ofBits .f32 0x3F000000#32
abbrev loW : EReal := Ideal.ofBits .f32 0xC2C80000#32
abbrev hiW : EReal := Ideal.ofBits .f32 0x42480000#32

/-- The negated clipped margin of the pair `(a, b)`. -/
def negMargin (a b : EReal) : EReal := -(min hiW (max loW (a - b - halfW)))

/-- The softplus in the stable form both programs use. -/
def softplus (z : EReal) : EReal := max z 0 + Ideal.log1p (Ideal.exp (-(max z (-z))))

/-- The loss of one triple: the softplus of the negated clipped margin. -/
def sp (a b : EReal) : EReal := softplus (negMargin a b)

/-- The loss of one row: for each `i` the terms weighted by `1 - p j` summed over `j`, times `p i`, summed over `i`. -/
def rowLoss {n : ℕ} (u p : Fin n → EReal) : EReal := ∑ i, (∑ j, sp (u i) (u j) * (oneW - p j)) * p i

/-- Nothing differs from itself: the ordered and the unordered "not equal" both answer `0`. -/
theorem cmp_one_self (x : EReal) : Ideal.cmp .one x x = 0#1 := by simp [Ideal.cmp]
theorem cmp_une_self (x : EReal) : Ideal.cmp .une x x = 0#1 := by simp [Ideal.cmp]

/-- The triple's loss as the first program's body spells it: negation as `0 - x`, the guard the ordered comparison. -/
def spK (a b : EReal) : EReal :=
  Scalar.select (Ideal.cmp .one ((zeroW - min hiW (max loW (a - b - halfW))) - zeroW) ((zeroW - min hiW (max loW (a - b - halfW))) - zeroW))
    ((zeroW - min hiW (max loW (a - b - halfW))) + zeroW)
    (max (zeroW - min hiW (max loW (a - b - halfW))) zeroW
      + Ideal.log1p (Ideal.exp (zeroW - max ((zeroW - min hiW (max loW (a - b - halfW))) - zeroW) (-((zeroW - min hiW (max loW (a - b - halfW))) - zeroW)))))

/-- The triple's loss as the second program spells it: a negation, the guard the unordered comparison. -/
def spR (a b : EReal) : EReal :=
  Scalar.select (Ideal.cmp .une (-(min hiW (max loW (a - b - halfW))) - zeroW) (-(min hiW (max loW (a - b - halfW))) - zeroW))
    (-(min hiW (max loW (a - b - halfW))) + zeroW)
    (max (-(min hiW (max loW (a - b - halfW)))) zeroW
      + Ideal.log1p (Ideal.exp (-(max (-(min hiW (max loW (a - b - halfW))) - zeroW) (-(-(min hiW (max loW (a - b - halfW))) - zeroW))))))

theorem spK_eq (a b : EReal) : spK a b = sp a b := by
  simp only [spK, sp, softplus, negMargin, zeroW, Ideal.ofBits_zero_f32, sub_zero, zero_sub, add_zero, cmp_one_self,
    select_zero]

theorem spR_eq (a b : EReal) : spR a b = sp a b := by
  simp only [spR, sp, softplus, negMargin, zeroW, Ideal.ofBits_zero_f32, sub_zero, add_zero, cmp_une_self, select_zero]

/-- A flag factor moves across the inner sum: `∑ i j, s i j * (p i * n j) = ∑ i, (∑ j, s i j * n j) * p i` when every
    `p i` is `0` or `1` — no finiteness of `s` or `n` is needed. -/
theorem sum_pull_flag {ι κ : Type*} [Fintype ι] [Fintype κ] (s : ι → κ → EReal) (p : ι → EReal) (n : κ → EReal)
    (hp : ∀ i, p i = 0 ∨ p i = 1) :
    ∑ i, ∑ j, s i j * (p i * n j) = ∑ i, (∑ j, s i j * n j) * p i := by
  refine Finset.sum_congr rfl fun i _ => ?_
  rcases hp i with h | h
  · rw [h]; simp only [zero_mul, mul_zero, Finset.sum_const_zero]
  · rw [h]; simp only [one_mul, mul_one]

/-- The sum over 384 columns is the three sums over 128 consecutive columns, added to `0` one after the other. -/
theorem sum_three_chunks (f : Fin 384 → EReal) :
    ((0 + ∑ k : Fin 128, f ⟨0 + k.val, by have := k.isLt; omega⟩) + ∑ k : Fin 128, f ⟨128 + k.val, by have := k.isLt; omega⟩)
      + ∑ k : Fin 128, f ⟨256 + k.val, by have := k.isLt; omega⟩ = ∑ j, f j := by
  rw [GroupedSum.sum_groups (J := 3) (B := 128) (K := 384) rfl f, Fin.sum_univ_three, zero_add]
  refine congrArg₂ (· + ·) (congrArg₂ (· + ·) ?_ ?_) ?_ <;>
    exact Finset.sum_congr rfl fun k _ => congrArg f (Fin.ext (by simp))

/-- A one-bit word read as a number is `0` or `1`. -/
theorem flag_zero_or_one (b : BitVec 1) : (((b.toNat : ℝ) : EReal) = 0) ∨ (((b.toNat : ℝ) : EReal) = 1) := by
  by_cases h : b = 1#1
  · right; subst h; simp
  · left; rw [eq_zero_of_ne_one h]; simp

end TripletLoss

end
-- ==== Proof.LibLastAxisSum.lean ====
/-
  A sum along the last axis of an `[a, b, c]` vector, read at an entry.

  A kernel's `multi_reduction <add>` over axis 2 of an `[a, b, c]` vector, from the zero accumulator, is on the
  extended reals the plain sum: entry `(p, q)` of the `[a, b]` result is the sum over `k` of the operand at
  `(p, q, k)`.
-/
import Idealize.ShloMosaic.PureOps.Ideal.Laws
import Idealize.ShloMosaic.Lib.ValueIdx

namespace LastAxisSum

open Idealize.ShloMosaic Idealize.ShloMosaic.ValueIdx

variable {a b c : ℕ}

/-- Entry `(p, q)` of the result with the coordinate `k` of the summed axis put back is the entry `(p, q, k)`. -/
theorem lift_last (h : Shape.Reduces ⟨3, ![a, b, c]⟩ [2] ⟨2, ![a, b]⟩) (p : Fin a) (q : Fin b) (k : Fin c) :
    h.lift (ix2 p q) k = ix3 p q k := by
  funext d
  apply Fin.ext
  match d with
  | ⟨0, _⟩ => rfl
  | ⟨1, _⟩ => rfl
  | ⟨2, _⟩ => rfl

/-- The sum over the last axis, at entry `(p, q)`. -/
theorem lastSum_apply (v : FVec Ideal ⟨3, ![a, b, c]⟩ .f32) (h : Shape.Reduces ⟨3, ![a, b, c]⟩ [2] ⟨2, ![a, b]⟩)
    (hφ : FKind.Formats .f32) (hacc : (0x00000000#32 : BitVec 32) = FKind.add.neutral .f32 hφ) (p : Fin a) (q : Fin b) :
    multiReduction .add [2] ⟨2, ![a, b]⟩ v 0x00000000#32 h hφ hacc (ix2 p q) = ∑ k : Fin c, v (ix3 p q k) := by
  refine (Ideal.multiReduction_add_single v 0x00000000#32 h hφ hacc (ix2 p q)).trans ?_
  exact Finset.sum_congr rfl fun k _ => congrArg v (lift_last h p q k)

end LastAxisSum
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.KernelBlock.lean ====
/-
  What one grid point of the kernel leaves in its output block.

  The body loads a block of 32 rows of the inner products `u` and of the flags `p`, forms for each of three groups of
  128 columns `j` the `[32, 384, 128]` array of the triples' losses `sp (u r i) (u r j)` times `1 - p r j`, sums it along
  `j`, adds the three sums to a zero accumulator, multiplies by `p r i` and sums along `i`. Read entry by entry on the
  extended reals, row `r` of the `[32, 1]` result is the row's loss `rowLoss` of TripletLaw.lean.
-/
import proofs.«131904_j48189533061230_2_alg».proof.Proof.Gen.KernelIdeal.Frame
import Idealize.ShloMosaic.Lib.ValueLayout
import Idealize.ShloMosaic.Lib.Pipeline.Value
import proofs.«131904_j48189533061230_2_alg».proof.Proof.TripletLaw
import proofs.«131904_j48189533061230_2_alg».proof.Proof.LibLastAxisSum
import proofs.«131904_j48189533061230_2_alg».proof.Proof.LibRowOps

noncomputable section

namespace Cert.KernelIdeal.BlockValue

open Cert.KernelIdeal Cert.KernelIdeal.Gen Idealize.ShloMosaic Idealize.ShloMosaic.ValueIdx TripletLoss

/-! ## The body's layout chains, read at an entry -/

/-- A `[32, 384]` block given a unit last axis and repeated along 128 columns reads, at `(r, i, k)`, the block at `(r, i)`. -/
theorem col_apply {α : Type} (v : S32x384.Idx → α) (r : Fin 32) (i : Fin 384) (k : Fin 128) :
    broadcastTo S32x384x128 (shapeCast S32x384x1 v shapeCasts_S32x384_S32x384x1) broadcasts_S32x384x1_S32x384x128 (ix3 r i k)
      = v (ix2 r i) := by
  refine (broadcastTo_apply _ broadcasts_S32x384x1_S32x384x128 (ix3 r i k) (ix3 r i (0 : Fin 1)) fun ax => ?_).trans ?_
  · match ax with
    | ⟨0, _⟩ => rfl
    | ⟨1, _⟩ => rfl
    | ⟨2, _⟩ => rfl
  · refine shapeCast_apply v shapeCasts_S32x384_S32x384x1 (ix3 r i (0 : Fin 1)) (ix2 r i) ?_
    rw [Shape.rowMajor_val_two, Shape.rowMajor_val_three]
    show r.val * 384 + i.val = (r.val * 384 + i.val) * 1 + 0
    omega

/-- A `[32, 1, 128]` array repeated along 384 rows reads, at `(r, i, k)`, the array at `(r, 0, k)`. -/
theorem mid_apply {α : Type} (w : S32x1x128.Idx → α) (r : Fin 32) (i : Fin 384) (k : Fin 128) :
    broadcastTo S32x384x128 w broadcasts_S32x1x128_S32x384x128 (ix3 r i k) = w (ix3 r (0 : Fin 1) k) := by
  refine broadcastTo_apply _ broadcasts_S32x1x128_S32x384x128 (ix3 r i k) (ix3 r (0 : Fin 1) k) fun ax => ?_
  match ax with
  | ⟨0, _⟩ => rfl
  | ⟨1, _⟩ => rfl
  | ⟨2, _⟩ => rfl

/-- A `[32, 128]` block given a unit middle axis reads, at `(r, 0, k)`, the block at `(r, k)`. -/
theorem unitMid_apply {α : Type} (w : S32x128.Idx → α) (r : Fin 32) (k : Fin 128) :
    shapeCast S32x1x128 w shapeCasts_S32x128_S32x1x128 (ix3 r (0 : Fin 1) k) = w (ix2 r k) := by
  refine shapeCast_apply w shapeCasts_S32x128_S32x1x128 (ix3 r (0 : Fin 1) k) (ix2 r k) ?_
  rw [Shape.rowMajor_val_two, Shape.rowMajor_val_three]
  show r.val * 128 + k.val = (r.val * 1 + 0) * 128 + k.val
  omega

/-- Both together: a `[32, 128]` block repeated along 384 rows reads, at `(r, i, k)`, the block at `(r, k)`. -/
theorem row_apply {α : Type} (w : S32x128.Idx → α) (r : Fin 32) (i : Fin 384) (k : Fin 128) :
    broadcastTo S32x384x128 (shapeCast S32x1x128 w shapeCasts_S32x128_S32x1x128) broadcasts_S32x1x128_S32x384x128 (ix3 r i k)
      = w (ix2 r k) :=
  (mid_apply _ r i k).trans (unitMid_apply w r k)

/-! ## The pointwise part of one group of columns -/

variable {S : Shape}

/-- The triples' losses of one group as the body spells them, over any shape: from the repeated block `A` and the
    repeated group of columns `B`. -/
def lossVec (A B : FVec Ideal S .f32) : FVec Ideal S .f32 :=
  select
    (cmpf .one
      (subf (subf (broadcast S (Scalar.ofBits .f32 0x00000000#32)) (minimumf (broadcast S (Scalar.ofBits .f32 0x42480000#32)) (maximumf (broadcast S (Scalar.ofBits .f32 0xC2C80000#32)) (subf (subf A B) (broadcast S (Scalar.ofBits .f32 0x3F000000#32)))))) (broadcast S (Scalar.ofBits .f32 0x00000000#32)))
      (subf (subf (broadcast S (Scalar.ofBits .f32 0x00000000#32)) (minimumf (broadcast S (Scalar.ofBits .f32 0x42480000#32)) (maximumf (broadcast S (Scalar.ofBits .f32 0xC2C80000#32)) (subf (subf A B) (broadcast S (Scalar.ofBits .f32 0x3F000000#32)))))) (broadcast S (Scalar.ofBits .f32 0x00000000#32))))
    (addf (subf (broadcast S (Scalar.ofBits .f32 0x00000000#32)) (minimumf (broadcast S (Scalar.ofBits .f32 0x42480000#32)) (maximumf (broadcast S (Scalar.ofBits .f32 0xC2C80000#32)) (subf (subf A B) (broadcast S (Scalar.ofBits .f32 0x3F000000#32)))))) (broadcast S (Scalar.ofBits .f32 0x00000000#32)))
    (addf
      (maximumf (subf (broadcast S (Scalar.ofBits .f32 0x00000000#32)) (minimumf (broadcast S (Scalar.ofBits .f32 0x42480000#32)) (maximumf (broadcast S (Scalar.ofBits .f32 0xC2C80000#32)) (subf (subf A B) (broadcast S (Scalar.ofBits .f32 0x3F000000#32)))))) (broadcast S (Scalar.ofBits .f32 0x00000000#32)))
      (log1p (exp (subf (broadcast S (Scalar.ofBits .f32 0x00000000#32))
        (absf (subf (subf (broadcast S (Scalar.ofBits .f32 0x00000000#32)) (minimumf (broadcast S (Scalar.ofBits .f32 0x42480000#32)) (maximumf (broadcast S (Scalar.ofBits .f32 0xC2C80000#32)) (subf (subf A B) (broadcast S (Scalar.ofBits .f32 0x3F000000#32)))))) (broadcast S (Scalar.ofBits .f32 0x00000000#32))))))))

/-- At an entry it is the triple's loss in the body's spelling. -/
theorem lossVec_apply (A B : FVec Ideal S .f32) (j : S.Idx) : lossVec A B j = spK (A j) (B j) := rfl

/-! ## The first group: columns 0 … 127 -/

theorem pay5_apply (v0 v2 : Vec Ideal S32x384 .f32) (r : Fin 32) (i : Fin 384) :
    k0_pay5 (F := Ideal) v0 v2 (ix2 r i)
      = zeroW + ∑ k : Fin 128, spK (v0 (ix2 r i)) (v0 (ix2 r ⟨0 + k.val, by have := k.isLt; omega⟩))
          * (oneW - v2 (ix2 r ⟨0 + k.val, by have := k.isLt; omega⟩)) := by
  unfold k0_pay5
  refine (addf_apply _ _ _).trans ?_
  refine congrArg₂ (· + ·) rfl ?_
  refine (LastAxisSum.lastSum_apply _ reduces_S32x384x128_S32x384 (.inl rfl) rfl r i).trans ?_
  refine Finset.sum_congr rfl fun k _ => ?_
  refine (mulf_apply _ _ _).trans ?_
  refine congrArg₂ (· * ·) ?_ ?_
  · refine (lossVec_apply _ _ (ix3 r i k)).trans ?_
    refine congrArg₂ spK ?_ ?_
    · exact (col_apply _ r i k).trans (congrFun (shapeCast_self v0 shapeCasts_S32x384_S32x384) _)
    · refine (row_apply _ r i k).trans ?_
      refine (slice2_axis1_apply 0 _ slices_S32x384_o0_0_S32x128 r k ⟨0 + k.val, by have := k.isLt; omega⟩ rfl).trans ?_
      exact congrFun (shapeCast_self v0 shapeCasts_S32x384_S32x384) _
  · refine (row_apply _ r i k).trans ?_
    refine (slice2_axis1_apply 0 _ slices_S32x384_o0_0_S32x128 r k ⟨0 + k.val, by have := k.isLt; omega⟩ rfl).trans ?_
    show oneW - shapeCast S32x384 v2 shapeCasts_S32x384_S32x384 _ = _
    rw [shapeCast_self]

/-! ## The second group: columns 128 … 255 -/

/-- The accumulator plus one group's sum, from the group's repeated columns `v44` and weights `v42`. -/
theorem pay9_apply (v40 : FVec Ideal S32x384 .f32) (v42 : FVec Ideal S32x128 .f32) (v44 : FVec Ideal S32x1x128 .f32)
    (v45 : FVec Ideal S32x384x128 .f32) (r : Fin 32) (i : Fin 384) :
    k0_pay9 (F := Ideal) v40 v42 v44 v45 (ix2 r i)
      = v40 (ix2 r i) + ∑ k : Fin 128, spK (v45 (ix3 r i k)) (v44 (ix3 r (0 : Fin 1) k)) * v42 (ix2 r k) := by
  unfold k0_pay9
  refine (addf_apply _ _ _).trans ?_
  refine congrArg₂ (· + ·) rfl ?_
  refine (LastAxisSum.lastSum_apply _ reduces_S32x384x128_S32x384 (.inl rfl) rfl r i).trans ?_
  refine Finset.sum_congr rfl fun k _ => ?_
  refine (mulf_apply _ _ _).trans ?_
  refine congrArg₂ (· * ·) ?_ (row_apply _ r i k)
  refine (lossVec_apply _ _ (ix3 r i k)).trans ?_
  exact congrArg₂ spK rfl (mid_apply _ r i k)

theorem pay6_apply (v2 : Vec Ideal S32x384 .f32) (r : Fin 32) (k : Fin 128) :
    k0_pay6 (F := Ideal) v2 (ix2 r k) = oneW - v2 (ix2 r ⟨128 + k.val, by have := k.isLt; omega⟩) := by
  unfold k0_pay6 k0_pay4 k0_pay3
  refine (slice2_axis1_apply 128 _ slices_S32x384_o0_128_S32x128 r k ⟨128 + k.val, by have := k.isLt; omega⟩ rfl).trans ?_
  show oneW - shapeCast S32x384 v2 shapeCasts_S32x384_S32x384 _ = _
  rw [shapeCast_self]

theorem pay7_apply (v0 : Vec Ideal S32x384 .f32) (r : Fin 32) (k : Fin 128) :
    k0_pay7 (F := Ideal) v0 (ix3 r (0 : Fin 1) k) = v0 (ix2 r ⟨128 + k.val, by have := k.isLt; omega⟩) := by
  unfold k0_pay7 k0_pay2
  refine (unitMid_apply _ r k).trans ?_
  refine (slice2_axis1_apply 128 _ slices_S32x384_o0_128_S32x128 r k ⟨128 + k.val, by have := k.isLt; omega⟩ rfl).trans ?_
  exact congrFun (shapeCast_self v0 shapeCasts_S32x384_S32x384) _

theorem pay8_apply (v0 : Vec Ideal S32x384 .f32) (r : Fin 32) (i : Fin 384) (k : Fin 128) :
    k0_pay8 (F := Ideal) v0 (ix3 r i k) = v0 (ix2 r i) := by
  unfold k0_pay8 k0_pay2
  exact (col_apply _ r i k).trans (congrFun (shapeCast_self v0 shapeCasts_S32x384_S32x384) _)

/-! ## The third group: columns 256 … 383, and the weighted sum over `i` -/

theorem pay10_apply (v5 : FVec Ideal S32x384 .f32) (r : Fin 32) (k : Fin 128) :
    k0_pay10 (F := Ideal) v5 (ix2 r k) = v5 (ix2 r ⟨256 + k.val, by have := k.isLt; omega⟩) := by
  unfold k0_pay10
  exact slice2_axis1_apply 256 v5 slices_S32x384_o0_256_S32x128 r k ⟨256 + k.val, by have := k.isLt; omega⟩ rfl

/-- The negated clipped margins of one group as the body spells them, over any shape. -/
def negClipVec (A B : FVec Ideal S .f32) : FVec Ideal S .f32 :=
  subf (broadcast S (Scalar.ofBits .f32 0x00000000#32)) (minimumf (broadcast S (Scalar.ofBits .f32 0x42480000#32)) (maximumf (broadcast S (Scalar.ofBits .f32 0xC2C80000#32)) (subf (subf A B) (broadcast S (Scalar.ofBits .f32 0x3F000000#32)))))

theorem negClipVec_apply (A B : FVec Ideal S .f32) (j : S.Idx) :
    negClipVec A B j = zeroW - min hiW (max loW (A j - B j - halfW)) := rfl

theorem pay11_apply (v1 : FVec Ideal S32x384 .f32) (r : Fin 32) (i : Fin 384) (k : Fin 128) :
    k0_pay11 (F := Ideal) v1 (ix3 r i k)
      = zeroW - min hiW (max loW (v1 (ix2 r i) - v1 (ix2 r ⟨256 + k.val, by have := k.isLt; omega⟩) - halfW)) := by
  unfold k0_pay11
  refine (negClipVec_apply _ _ (ix3 r i k)).trans ?_
  refine congrArg₂ (fun a b : EReal => zeroW - min hiW (max loW (a - b - halfW))) (col_apply v1 r i k) ?_
  exact (row_apply _ r i k).trans
    (slice2_axis1_apply 256 v1 slices_S32x384_o0_256_S32x128 r k ⟨256 + k.val, by have := k.isLt; omega⟩ rfl)

/-- The third group's loss, spread by the body over three named values, is the triple's loss. -/
theorem last_elem (v1 : FVec Ideal S32x384 .f32) (r : Fin 32) (i : Fin 384) (k : Fin 128) :
    Scalar.select (Ideal.cmp .one (k0_pay13 (F := Ideal) v1 (ix3 r i k)) (k0_pay13 (F := Ideal) v1 (ix3 r i k)))
        (k0_pay11 (F := Ideal) v1 (ix3 r i k) + zeroW)
        (k0_pay12 (F := Ideal) v1 (ix3 r i k)
          + Ideal.log1p (Ideal.exp (zeroW - max (k0_pay13 (F := Ideal) v1 (ix3 r i k)) (-(k0_pay13 (F := Ideal) v1 (ix3 r i k))))))
      = spK (v1 (ix2 r i)) (v1 (ix2 r ⟨256 + k.val, by have := k.isLt; omega⟩)) := by
  have h12 : k0_pay12 (F := Ideal) v1 (ix3 r i k) = max (k0_pay11 (F := Ideal) v1 (ix3 r i k)) zeroW := rfl
  have h13 : k0_pay13 (F := Ideal) v1 (ix3 r i k) = k0_pay11 (F := Ideal) v1 (ix3 r i k) - zeroW := rfl
  rw [h12, h13, pay11_apply v1 r i k]
  rfl

/-- The stored column, at row `r`: the sum over `i` of (the accumulator plus the third group's sum) times the flag. -/
theorem pay1_apply (v3 v74 : FVec Ideal S32x384 .f32) (v76 : FVec Ideal S32x128 .f32) (v89 : FVec Ideal S32x384x128 .f32)
    (cst : Ideal .f32) (v91 v93 : FVec Ideal S32x384x128 .f32) (r : Fin 32) :
    k0_pay1 (F := Ideal) v3 v74 v76 v89 cst v91 v93 (ix2 r (0 : Fin 1))
      = ∑ i : Fin 384, (v74 (ix2 r i) + ∑ k : Fin 128,
          Scalar.select (Ideal.cmp .one (v93 (ix3 r i k)) (v93 (ix3 r i k))) (v89 (ix3 r i k) + cst)
            (v91 (ix3 r i k) + Ideal.log1p (Ideal.exp (zeroW - max (v93 (ix3 r i k)) (-(v93 (ix3 r i k))))))
            * v76 (ix2 r k)) * v3 (ix2 r i) := by
  unfold k0_pay1
  refine (Gcn.Lib.shapeCast_a_a1_apply _ shapeCasts_S32_S32x1 r (0 : Fin 1)).trans ?_
  refine (Gcn.Lib.rowSum_apply _ reduces_S32x384_S32 (.inl rfl) rfl r).trans ?_
  refine Finset.sum_congr rfl fun i _ => ?_
  refine (mulf_apply _ _ _).trans ?_
  refine congrArg₂ (· * ·) ?_ rfl
  refine (addf_apply _ _ _).trans ?_
  refine congrArg₂ (· + ·) rfl ?_
  refine (LastAxisSum.lastSum_apply _ reduces_S32x384x128_S32x384 (.inl rfl) rfl r i).trans ?_
  refine Finset.sum_congr rfl fun k _ => ?_
  refine (mulf_apply _ _ _).trans ?_
  exact congrArg₂ (· * ·) rfl (row_apply _ r i k)

/-! ## The block -/

theorem hz : (![0, 0] : Fin 2 → Nat) = fun _ => 0 := funext fun a => by fin_cases a <;> rfl

/-- ROW `r` OF WHAT A POINT LEAVES in its output block is the loss of row `r` of its two input blocks. -/
theorem out_row (x0 x1 : Vec Ideal S32x384 .f32) (r : Fin 32) :
    out0_2 (F := Ideal) x0 x1 (ix2 r (0 : Fin 1)) = rowLoss (fun i => x0 (ix2 r i)) (fun i => x1 (ix2 r i)) := by
  unfold out0_2
  rw [View.canon_unit_zero hz]
  simp only [View.ld_unit_zero (S := S32x384) hz]
  rw [pay1_apply]
  unfold rowLoss
  refine Finset.sum_congr rfl fun i _ => ?_
  refine congrArg₂ (· * ·) ?_ (congrFun (shapeCast_self x1 shapeCasts_S32x384_S32x384) _)
  refine Eq.trans ?_ (sum_three_chunks (fun j => sp (x0 (ix2 r i)) (x0 (ix2 r j)) * (oneW - x1 (ix2 r j))))
  refine congrArg₂ (· + ·) ?_ ?_
  · refine (pay9_apply _ _ _ _ r i).trans ?_
    refine congrArg₂ (· + ·) ?_ ?_
    · refine (pay5_apply x0 x1 r i).trans ?_
      refine congrArg₂ (· + ·) Ideal.ofBits_zero_f32 ?_
      exact Finset.sum_congr rfl fun k _ => by rw [spK_eq]
    · refine Finset.sum_congr rfl fun k _ => ?_
      rw [pay8_apply, pay7_apply, pay6_apply, spK_eq]
  · refine Finset.sum_congr rfl fun k _ => ?_
    refine congrArg₂ (· * ·) ?_ ?_
    · refine (last_elem (k0_pay2 (F := Ideal) x0) r i k).trans ?_
      rw [spK_eq]
      exact congrArg₂ sp (congrFun (shapeCast_self x0 shapeCasts_S32x384_S32x384) _)
        (congrFun (shapeCast_self x0 shapeCasts_S32x384_S32x384) _)
    · refine (pay10_apply _ r k).trans ?_
      show oneW - shapeCast S32x384 x1 shapeCasts_S32x384_S32x384 _ = _
      rw [shapeCast_self]

end Cert.KernelIdeal.BlockValue

end
-- ==== Proof.KernelRows.lean ====
/-
  The kernel's output array after the run: every row's loss.

  Grid point `t` stages rows `32 t … 32 t + 31` of the inner products and of the flags (all 384 columns) and writes back
  rows `32 t … 32 t + 31` of the `[384, 1]` output; the twelve points cover all 384 rows. So the output array ends at
  the function whose entry `(r, 0)` is the loss of row `r` of the two arrays the region found.
-/
import proofs.«131904_j48189533061230_2_alg».proof.Proof.KernelBlock

set_option maxRecDepth 16384

noncomputable section

namespace Cert.KernelIdeal.RowsValue

open Cert.KernelIdeal Cert.KernelIdeal.Gen Idealize.ShloMosaic Idealize.ShloMosaic.TcCoe Idealize.ShloMosaic.ValueIdx
  Idealize.SL.Sem TripletLoss
open Idealize.ShloMosaic.Pipeline (Dat)

variable (m : (ℓ : Loc nD τ sig) → Buf (Elt Ideal) ℓ)

/-- Every row's loss, as an `[384, 1]` array of the inner products `ip` and the flags `pos`. -/
def rowLosses (ip pos : S384x384.Idx → EReal) : S384x1.Idx → EReal :=
  fun j => rowLoss (fun i => ip (ix2 (j 0) i)) (fun i => pos (ix2 (j 0) i))

/-- The printed index maps over the grid: both inputs' blocks move with the output's along the rows and sit at column
    block 0; the output's row block is at most 11. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 11 :=
  (by decide +kernel : ∀ t : Fin grid0.N, _)

/-- Every row block is some point's. -/
theorem idx_onto : ∀ q : Fin 12, ∃ t : Fin cfg0.N, win0_2.index t = ![q.val, 0] :=
  (by decide +kernel : ∀ q : Fin 12, ∃ t : Fin grid0.N, win0_2.index t = ![q.val, 0])

/-- WHAT POINT `t` WRITES BACK is block `t` of the rows' losses of the arrays as the region finds them. -/
theorem flushed_eq (c : Dev nD) (t : Fin cfg0.N) :
    (dats m 0 c).flushed 2 t
      = ((cfg0.win 2).blk t).view.read (Elt Ideal) (rowLosses (V m c main_v2) (V m c main_v7)) := by
  show (cfg0.win 2).cut (grid0.coords t) ((dats m 0 c).after 2 t) = _
  rw [after0_2]
  obtain ⟨e0, e1, e2, e3, e4, e5⟩ := idx_facts t
  funext j
  obtain ⟨rr, u, rfl⟩ : ∃ (rr : Fin 32) (u : Fin 1), j = ix2 rr u := ⟨j 0, j 1, eq_ix2 j⟩
  obtain rfl : u = 0 := Subsingleton.elim _ _
  show out0_2 (F := Ideal) (iblk m c 0 t) (iblk m c 1 t) (ix2 rr (0 : Fin 1))
    = rowLosses (V m c main_v2) (V m c main_v7) (((cfg0.win 2).blk t).view.emb (ix2 rr (0 : Fin 1)))
  refine (BlockValue.out_row (iblk m c 0 t) (iblk m c 1 t) rr).trans ?_
  unfold rowLosses
  have h0 : ∀ i : Fin 384, ((cfg0.win 0).blk t).view.emb (ix2 rr i)
      = ix2 ((((cfg0.win 2).blk t).view.emb (ix2 rr (0 : Fin 1))) 0) i := fun i => by
    funext a; apply Fin.ext
    match a with
    | ⟨0, _⟩ => show win0_0.index t (0 : Fin 2) * 32 + 1 * rr.val = win0_2.index t (0 : Fin 2) * 32 + 1 * rr.val; omega
    | ⟨1, _⟩ => show win0_0.index t (1 : Fin 2) * 384 + 1 * i.val = i.val; omega
  have h1 : ∀ i : Fin 384, ((cfg0.win 1).blk t).view.emb (ix2 rr i)
      = ix2 ((((cfg0.win 2).blk t).view.emb (ix2 rr (0 : Fin 1))) 0) i := fun i => by
    funext a; apply Fin.ext
    match a with
    | ⟨0, _⟩ => show win0_1.index t (0 : Fin 2) * 32 + 1 * rr.val = win0_2.index t (0 : Fin 2) * 32 + 1 * rr.val; omega
    | ⟨1, _⟩ => show win0_1.index t (1 : Fin 2) * 384 + 1 * i.val = i.val; omega
  refine congrArg₂ rowLoss (funext fun i => ?_) (funext fun i => ?_)
  · show V m c main_v2 (((cfg0.win 0).blk t).view.emb (ix2 rr i)) = _
    exact congrArg (V m c main_v2) (h0 i)
  · show V m c main_v7 (((cfg0.win 1).blk t).view.emb (ix2 rr i)) = _
    exact congrArg (V m c main_v7) (h1 i)

/-- An index of the output array is in point `t`'s block iff each coordinate is in the block's range on its axis. -/
theorem mem_blk (t : Fin cfg0.N) (i : S384x1.Idx) :
    i ∈ ((cfg0.win 2).blk t).view.set ↔ ∀ a : Fin 2, win0_2.index t a * S32x1.size a ≤ (i a).val ∧ (i a).val < win0_2.index t a * S32x1.size a + S32x1.size a := by
  show i ∈ ((View.whole main_v15).slice (win0_2.rect t)).set ↔ _
  rw [View.set_slice_whole, Rect.mem_set_unit]
  exact Iff.rfl

/-- The twelve blocks cover the array: row `r` is in the block of the point at row block `r / 32`. -/
theorem cover (i : S384x1.Idx) : ∃ t : Fin cfg0.N, (cfg0.win 2).flush t = true ∧ i ∈ ((cfg0.win 2).blk t).view.set := by
  have hi0 : (i 0).val < 384 := (i 0).isLt
  have hi1 : (i 1).val < 1 := (i 1).isLt
  obtain ⟨t, ht⟩ := idx_onto ⟨(i 0).val / 32, by omega⟩
  have q0 : win0_2.index t (0 : Fin 2) = (i 0).val / 32 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 32 ≤ (i 0).val ∧ (i 0).val < win0_2.index t (0 : Fin 2) * 32 + 32; omega
  | ⟨1, _⟩ => show win0_2.index t (1 : Fin 2) * 1 ≤ (i 1).val ∧ (i 1).val < win0_2.index t (1 : Fin 2) * 1 + 1; omega

/-- THE OUTPUT ARRAY after the run: every row's loss, of the inner products and the flags as the region found them. -/
theorem final (c : Dev nD) :
    (dats m 0 c).arrAt 2 cfg0.N = rowLosses (V m c main_v2) (V m c main_v7) :=
  (dats m 0 c).arrAt_eq_of_cover 2 (rowLosses (V m c main_v2) (V m c main_v7)) (fun t _ => flushed_eq m c t) cover

end Cert.KernelIdeal.RowsValue

end
-- ==== Proof.LibHostSum12.lean ====
/-
  The host's sum over the two trailing axes of an `[a, b, c]` array, read at an entry.

  A `stablehlo.reduce` with an `add` body over axes 1 and 2 of an `[a, b, c]` array into `[a]` is, on the extended
  reals, the initial value plus the sum of the operand elements whose leading coordinate is the entry's: entry `r` is
  `init + ∑ p q, x (r, p, q)`. Every extent is generic.
-/
import Idealize.ShloMosaic.PureOps.Ideal.Laws
import Idealize.ShloMosaic.Lib.ValueIdx

namespace HostSumTwoAxes

open Idealize.ShloMosaic Idealize.ShloMosaic.ValueIdx

variable {a b c : ℕ}

/-- Dropping axes 1 and 2 of `(r, p, q)` leaves `r`. -/
theorem drop_val (h : Shape.ReducesTo ⟨3, ![a, b, c]⟩ [1, 2] ⟨1, ![a]⟩) (i : (⟨3, ![a, b, c]⟩ : Shape).Idx) :
    (h.drop i 0).val = (i 0).val := rfl

/-- The sum over axes 1 and 2, at entry `r`. -/
theorem hostSum12_apply (x : (⟨3, ![a, b, c]⟩ : Shape).Idx → EReal) (init : EReal)
    (h : Shape.ReducesTo ⟨3, ![a, b, c]⟩ [1, 2] ⟨1, ![a]⟩) (r : Fin a) :
    Ideal.hostReduceAdd h x init (ix1 r) = init + ∑ p : Fin b, ∑ q : Fin c, x (ix3 r p q) := by
  unfold Ideal.hostReduceAdd
  refine congrArg (init + ·) ?_
  rw [← Fintype.sum_prod_type']
  refine Finset.sum_bij' (fun i _ => ((i 1 : Fin b), (i 2 : Fin c))) (fun pq _ => ix3 r pq.1 pq.2)
    (fun _ _ => Finset.mem_univ _) ?_ ?_ (fun _ _ => rfl) ?_
  · intro pq _
    rw [Finset.mem_filter]
    refine ⟨Finset.mem_univ _, ?_⟩
    funext d
    match d with
    | ⟨0, _⟩ => exact Fin.ext rfl
  · intro i hi
    rw [Finset.mem_filter] at hi
    have h0 : (i 0).val = r.val := by
      have := congrArg (fun j => (j 0).val) hi.2
      exact this
    funext d
    apply Fin.ext
    match d with
    | ⟨0, _⟩ => exact h0.symm
    | ⟨1, _⟩ => rfl
    | ⟨2, _⟩ => rfl
  · intro i hi
    rw [Finset.mem_filter] at hi
    have h0 : (i 0).val = r.val := by
      have := congrArg (fun j => (j 0).val) hi.2
      exact this
    refine congrArg x ?_
    funext d
    apply Fin.ext
    match d with
    | ⟨0, _⟩ => exact h0
    | ⟨1, _⟩ => rfl
    | ⟨2, _⟩ => rfl

end HostSumTwoAxes
-- ==== Proof.RefRowLoss.lean ====
/-
  The reference's per-row sum is the row's loss.

  The reference forms the whole `[384, 384, 384]` array of the triples' losses `sp (u r i) (u r j)` times the pair
  weights `p r i * (1 - p r j)` and sums it over `(i, j)` at once. Entry `r` of that sum is `rowLoss` of row `r` of the
  inner products and of the flags: a flag is `0` or `1`, so the factor `p r i` moves out of the sum over `j`
  (TripletLaw.lean `sum_pull_flag`).
-/
import proofs.«131904_j48189533061230_2_alg».proof.Proof.RefRead
import proofs.«131904_j48189533061230_2_alg».proof.Proof.TripletLaw
import proofs.«131904_j48189533061230_2_alg».proof.Proof.LibHostSum12

noncomputable section

namespace Cert.ReferenceIdeal.RowLoss

open Cert.ReferenceIdeal Cert.ReferenceIdeal.Gen Cert.ReferenceIdeal.ReadP Idealize.ShloMosaic Idealize.ShloMosaic.ValueIdx
  TripletLoss

/-- Entry `(r, i, j)` of the weighted losses: the triple's loss of `(u r i, u r j)` times `p r i * (1 - p r j)`. -/
theorem weighted_apply (x0 : (⟨S384x128, .f32⟩ : BufTy).Contents (Elt Ideal)) (x1 : (⟨S384x80, .i32⟩ : BufTy).Contents (Elt Ideal))
    (r i j : Fin 384) :
    val_main_v30 (F := Ideal) x0 x1 (ix3 r i j)
      = spR (val_main_v2 (F := Ideal) x0 (ix2 r i)) (val_main_v2 (F := Ideal) x0 (ix2 r j))
          * (val_main_v7 (F := Ideal) x1 (ix2 r i) * (oneW - val_main_v7 (F := Ideal) x1 (ix2 r j))) := by
  have e1 : idx_main_v10 (idx_main_v12 (ix3 r i j)) = ix2 r i :=
    funext fun a => Fin.ext (by match a with | ⟨0, _⟩ => rfl | ⟨1, _⟩ => rfl)
  have e2 : idx_main_v11 (idx_main_v13 (ix3 r i j)) = ix2 r j :=
    funext fun a => Fin.ext (by match a with | ⟨0, _⟩ => rfl | ⟨1, _⟩ => rfl)
  have e3 : idx_main_v20 (idx_main_v22 (ix3 r i j)) = ix2 r i :=
    funext fun a => Fin.ext (by match a with | ⟨0, _⟩ => rfl | ⟨1, _⟩ => rfl)
  have e4 : idx_main_v21 (idx_main_v23 (ix3 r i j)) = ix2 r j :=
    funext fun a => Fin.ext (by match a with | ⟨0, _⟩ => rfl | ⟨1, _⟩ => rfl)
  simp only [val_main_v30_apply, val_main_v19_apply, val_main_call1_v4_apply, val_main_call1_v6_apply,
    val_main_call1_v11_apply, val_main_call1_v1_apply, val_main_call1_v10_apply, val_main_call1_v9_apply,
    val_main_call1_v8_apply, val_main_call1_v7_apply, val_main_call1_v3_apply, val_main_call1_v0_apply,
    val_main_call1_v2_apply, val_main_call1_v5_apply, val_main_call1_cst_apply, val_main_v18_apply, val_main_v17_apply,
    val_main_call0_v4_apply, val_main_call0_v3_apply, val_main_cst_3_apply, val_main_call0_v2_apply,
    val_main_call0_v1_apply, val_main_call0_v0_apply, val_main_cst_2_apply, val_main_v16_apply, val_main_v15_apply,
    val_main_cst_1_apply, val_main_v14_apply, val_main_v12_apply, val_main_v13_apply, val_main_v10_apply,
    val_main_v11_apply, val_main_v24_apply, val_main_v22_apply, val_main_v23_apply, val_main_v20_apply,
    val_main_v21_apply, val_main_v9_apply, val_main_v8_apply, val_main_cst_0_apply, e1, e2, e3, e4]
  rfl

/-- A flag of the similarity mask is `0` or `1`. -/
theorem flag_apply (x1 : (⟨S384x80, .i32⟩ : BufTy).Contents (Elt Ideal)) (j : S384x384.Idx) :
    val_main_v7 (F := Ideal) x1 j = 0 ∨ val_main_v7 (F := Ideal) x1 j = 1 :=
  flag_zero_or_one (val_main_v6 (F := Ideal) x1 j)

/-- Entry `r` of the reference's sum over `(i, j)` is the loss of row `r`. -/
theorem rowSum_apply (x0 : (⟨S384x128, .f32⟩ : BufTy).Contents (Elt Ideal)) (x1 : (⟨S384x80, .i32⟩ : BufTy).Contents (Elt Ideal))
    (r : Fin 384) :
    val_main_v31 (F := Ideal) x0 x1 (ix1 r)
      = rowLoss (fun i => val_main_v2 (F := Ideal) x0 (ix2 r i)) (fun i => val_main_v7 (F := Ideal) x1 (ix2 r i)) := by
  unfold val_main_v31
  simp only [Host.reduceAdd, Ideal.hostReduceAdd_def]
  rw [HostSumTwoAxes.hostSum12_apply]
  simp only [weighted_apply, spR_eq]
  rw [sum_pull_flag (fun i j => sp (val_main_v2 (F := Ideal) x0 (ix2 r i)) (val_main_v2 (F := Ideal) x0 (ix2 r j)))
    (fun i => val_main_v7 (F := Ideal) x1 (ix2 r i)) (fun j => oneW - val_main_v7 (F := Ideal) x1 (ix2 r j))
    (fun i => flag_apply x1 (ix2 r i))]
  show Ideal.ofBits .f32 0x00000000#32 + _ = _
  rw [Ideal.ofBits_zero_f32, zero_add]
  rfl

end Cert.ReferenceIdeal.RowLoss

end
-- ==== Proof.LossValue.lean ====
/-
  The kernel program's result is the reference's.

  Both programs compute the inner products `ip = u uᵀ`, the similarity flags `pos`, the pair counts and the rows'
  validity mask by the same host operations, then a vector of per-row sums, and end with the same host operations on
  that vector (divide by the pair count where valid, average over the valid rows, add the quantization term of `u`).
  The kernel program gets the per-row sums from its region (KernelRows.lean: every row's loss), the reference from one
  sum over `(i, j)` (RefRowLoss.lean: every row's loss again). The common ending is wrapped in ONE definition and
  never opened: the two results are that definition at equal arguments.
-/
import proofs.«131904_j48189533061230_2_alg».proof.Proof.KernelRows
import proofs.«131904_j48189533061230_2_alg».proof.Proof.RefRowLoss
import Idealize.ShloMosaic.Lib.StableHlo.Run

set_option maxRecDepth 16384

noncomputable section

namespace Cert.LossValue

open Cert.KernelIdeal Cert.KernelIdeal.Gen Idealize.ShloMosaic Idealize.ShloMosaic.TcCoe Idealize.ShloMosaic.ValueIdx
  Idealize.SL.Sem Idealize.ShloMosaic.StableHlo TripletLoss
open Idealize.ShloMosaic.Pipeline (Dat)

/-- The common ending: from the rows' validity mask, the pair counts, the per-row sums and `u`, the scalar loss. -/
def lossTail (valid : IVec S384 1) (pc rs : FVec Ideal S384 .f32) (u : FVec Ideal S384x128 .f32) : FVec Ideal S_ .f32 :=
  addf
    (select
      (cmpf .ogt
        (sitofp (F := Ideal) .f32 (Host.reduce IntOp.addi (extui 32 valid natLt_1_32) (constantI S_ 32 0#32) reducesTo_S384_S_d0 h_S_))
        (constant (F := Ideal) S_ .f32 0x00000000#32))
      (Host.divf
        (Host.reduceAdd
          (mulf
            (Host.divf rs
              (select valid pc (broadcastInDim S384 ![] bcast_S_S384 (id (constant (F := Ideal) S_ .f32 0x3F800000#32)))))
            (uitofp (F := Ideal) .f32 valid))
          (constant (F := Ideal) S_ .f32 0x00000000#32) reducesTo_S384_S_d0 h_S_)
        (maximumf
          (sitofp (F := Ideal) .f32 (Host.reduce IntOp.addi (extui 32 valid natLt_1_32) (constantI S_ 32 0#32) reducesTo_S384_S_d0 h_S_))
          (constant (F := Ideal) S_ .f32 0x3F800000#32)))
      (constant (F := Ideal) S_ .f32 0x00000000#32))
    (mulf (constant (F := Ideal) S_ .f32 0x3DCCCCCD#32)
      (Host.divf
        (Host.reduceAdd (mulf (subf u (Host.sign u)) (subf u (Host.sign u))) (constant (F := Ideal) S_ .f32 0x00000000#32)
          reducesTo_S384x128_S_d0_1 h_S_)
        (constant (F := Ideal) S_ .f32 0x47400000#32)))

variable (m : (ℓ : Loc nD τ sig) → Buf (Elt Ideal) ℓ)

/-! ## What the region finds: the host operations before it, as the reference's stages -/

/-- The inner products the region finds are the reference's. -/
theorem V_ip (c : Dev nD) :
    (V m c main_v2 : S384x384.Idx → EReal)
      = Cert.ReferenceIdeal.ReadP.val_main_v2 (F := Ideal) (m ((c.tc : Thread nD τ).loc main_arg0)) := by
  show StableHlo.after hostOps0 (fun b => m (c, b)) (Proc.devRef .tc main_v2) = _
  after_results_simp
  rfl

/-- The flags the region finds are the reference's. -/
theorem V_pos (c : Dev nD) :
    (V m c main_v7 : S384x384.Idx → EReal)
      = Cert.ReferenceIdeal.ReadP.val_main_v7 (F := Ideal) (m ((c.tc : Thread nD τ).loc main_arg1)) := by
  show StableHlo.after hostOps0 (fun b => m (c, b)) (Proc.devRef .tc main_v7) = _
  after_results_simp
  rfl

/-- The pair counts. -/
theorem V_pc (c : Dev nD) :
    (V m c main_v12 : S384.Idx → EReal)
      = Cert.ReferenceIdeal.ReadP.val_main_v27 (F := Ideal) (m ((c.tc : Thread nD τ).loc main_arg1)) := by
  show StableHlo.after hostOps0 (fun b => m (c, b)) (Proc.devRef .tc main_v12) = _
  after_results_simp
  rfl

/-- The rows' validity mask. -/
theorem V_valid (c : Dev nD) :
    (V m c main_v14 : S384.Idx → BitVec 1)
      = Cert.ReferenceIdeal.ReadP.val_main_v29 (F := Ideal) (m ((c.tc : Thread nD τ).loc main_arg1)) := by
  show StableHlo.after hostOps0 (fun b => m (c, b)) (Proc.devRef .tc main_v14) = _
  after_results_simp
  rfl

/-! ## The per-row sums agree -/

/-- The kernel's output column, flattened, is the reference's vector of per-row sums. -/
theorem rows_eq (x0 : (⟨S384x128, .f32⟩ : BufTy).Contents (Elt Ideal)) (x1 : (⟨S384x80, .i32⟩ : BufTy).Contents (Elt Ideal)) :
    (fun i => shapeCast S384 (RowsValue.rowLosses (Cert.ReferenceIdeal.ReadP.val_main_v2 (F := Ideal) x0)
        (Cert.ReferenceIdeal.ReadP.val_main_v7 (F := Ideal) x1)) shapeCasts_S384x1_S384 i)
      = Cert.ReferenceIdeal.ReadP.val_main_v31 (F := Ideal) x0 x1 := by
  funext j
  obtain ⟨r, rfl⟩ : ∃ r : Fin 384, j = ix1 r := ⟨j 0, eq_ix1 j⟩
  refine Eq.trans ?_ (Cert.ReferenceIdeal.RowLoss.rowSum_apply x0 x1 r).symm
  refine shapeCast_apply _ shapeCasts_S384x1_S384 (ix1 r) (ix2 r (0 : Fin 1)) ?_
  rw [Shape.rowMajor_val_two, Shape.rowMajor_val_one]
  show r.val * 1 + 0 = r.val
  omega

/-! ## The result -/

set_option maxHeartbeats 4000000 in
/-- The kernel program's result buffer after the run, as the frame run states it, is the reference's last stage at
    the kernel's arguments. -/
theorem result_eq (c : Dev nD) :
    Pipeline.afterTail₀ cfgs (dats m) 0 (V0 m) [hostOps1, hostOps1_1, hostOps1_2, hostOps1_3, hostOps1_4] c main_v35
      = Cert.ReferenceIdeal.ReadP.val_main_v50 (F := Ideal) (m ((c.tc : Thread nD τ).loc main_arg0))
          (m ((c.tc : Thread nD τ).loc main_arg1)) := by
  have hW14 : Pipeline.withArrays (cfgs 0).spec c (V0 m c) (fun w => (dats m 0 c).arrAt w (cfgs 0).N) (Proc.devRef .tc main_v14)
      = V m c main_v14 :=
    Pipeline.withArrays_of_ne _ c (V0 m c) _ main_v14 (by exact (by decide : ∀ w, Pipeline.arrRef spec0 w ≠ main_v14))
  have hW12 : Pipeline.withArrays (cfgs 0).spec c (V0 m c) (fun w => (dats m 0 c).arrAt w (cfgs 0).N) (Proc.devRef .tc main_v12)
      = V m c main_v12 :=
    Pipeline.withArrays_of_ne _ c (V0 m c) _ main_v12 (by exact (by decide : ∀ w, Pipeline.arrRef spec0 w ≠ main_v12))
  have hW0 : Pipeline.withArrays (cfgs 0).spec c (V0 m c) (fun w => (dats m 0 c).arrAt w (cfgs 0).N) (Proc.devRef .tc main_arg0)
      = V m c main_arg0 :=
    Pipeline.withArrays_of_ne _ c (V0 m c) _ main_arg0 (by exact (by decide : ∀ w, Pipeline.arrRef spec0 w ≠ main_arg0))
  have hW15 : Pipeline.withArrays (cfgs 0).spec c (V0 m c) (fun w => (dats m 0 c).arrAt w (cfgs 0).N) (Proc.devRef .tc main_v15)
      = RowsValue.rowLosses (V m c main_v2) (V m c main_v7) :=
    (Pipeline.withArrays_arr spec0 launch0.win.arr_inj c _ _ 2).trans (RowsValue.final m c)
  unfold Pipeline.afterTail₀
  simp only [hostOps1, hostOps1_1, hostOps1_2, hostOps1_3, hostOps1_4, List.flatten_cons, List.flatten_nil, List.append_nil,
    List.cons_append, List.nil_append]
  after_results_simp
  rw [hW14, hW12, hW0, hW15, V_main_arg0, V_ip, V_pos, V_pc, V_valid]
  show lossTail (Cert.ReferenceIdeal.ReadP.val_main_v29 (F := Ideal) (m ((c.tc : Thread nD τ).loc main_arg1)))
      (Cert.ReferenceIdeal.ReadP.val_main_v27 (F := Ideal) (m ((c.tc : Thread nD τ).loc main_arg1)))
      (fun i => shapeCast S384 (RowsValue.rowLosses
        (Cert.ReferenceIdeal.ReadP.val_main_v2 (F := Ideal) (m ((c.tc : Thread nD τ).loc main_arg0)))
        (Cert.ReferenceIdeal.ReadP.val_main_v7 (F := Ideal) (m ((c.tc : Thread nD τ).loc main_arg1)))) shapeCasts_S384x1_S384 i)
      (m ((c.tc : Thread nD τ).loc main_arg0))
    = lossTail (Cert.ReferenceIdeal.ReadP.val_main_v29 (F := Ideal) (m ((c.tc : Thread nD τ).loc main_arg1)))
      (Cert.ReferenceIdeal.ReadP.val_main_v27 (F := Ideal) (m ((c.tc : Thread nD τ).loc main_arg1)))
      (Cert.ReferenceIdeal.ReadP.val_main_v31 (F := Ideal) (m ((c.tc : Thread nD τ).loc main_arg0)) (m ((c.tc : Thread nD τ).loc main_arg1)))
      (m ((c.tc : Thread nD τ).loc main_arg0))
  rw [rows_eq]

end Cert.LossValue

end
-- ==== Proof.lean ====
/-
  The triplet ranking loss of a batch of hash codes: the tiled kernel program against the jnp reference.

  Both programs form the inner products `ip = u uᵀ` and the similarity flags `pos` (1 where two label rows share a
  class), and both end by dividing each row's sum by its number of (similar, dissimilar) pairs, averaging over the rows
  that have such pairs and adding the quantization term `0.1 · mean((u - sign u)²)`. They differ in how a row's sum is
  taken. The reference sums `softplus(-clip(ip r i - ip r j - 1/2)) · (pos r i · (1 - pos r j))` over all `(i, j)` at once.
  The kernel, for a block of 32 rows per grid point, sums the losses times `1 - pos r j` over `j` in three groups of 128
  columns, and only then multiplies by `pos r i` and sums over `i`. On the extended reals the two sums agree because a
  flag is `0` or `1` (TripletLaw.lean); the rest is bookkeeping: what a grid point leaves in its block
  (KernelBlock.lean), what the output array holds after the twelve points (KernelRows.lean), the reference's sum read at
  a row (RefRowLoss.lean), and the common ending wrapped in one definition (LossValue.lean). No operation of the kernel
  was rewritten by the idealization, so the kernel's idealization is its own text read on the extended reals. The
  precondition (finite inputs) is not needed by the argument.
-/
import proofs.«131904_j48189533061230_2_alg».proof.Defs
import proofs.«131904_j48189533061230_2_alg».proof.Proof.Gen.Kernel
import proofs.«131904_j48189533061230_2_alg».proof.Proof.Gen.Kernel.Skeleton
import proofs.«131904_j48189533061230_2_alg».proof.Proof.Gen.Kernel.Launch
import proofs.«131904_j48189533061230_2_alg».proof.Proof.Gen.Kernel.Points
import proofs.«131904_j48189533061230_2_alg».proof.Proof.Gen.Kernel.Frame
import proofs.«131904_j48189533061230_2_alg».proof.Proof.Gen.KernelIdeal
import proofs.«131904_j48189533061230_2_alg».proof.Proof.Gen.KernelIdeal.Skeleton
import proofs.«131904_j48189533061230_2_alg».proof.Proof.Gen.KernelIdeal.Launch
import proofs.«131904_j48189533061230_2_alg».proof.Proof.Gen.KernelIdeal.Points
import proofs.«131904_j48189533061230_2_alg».proof.Proof.Gen.KernelIdeal.Frame
import proofs.«131904_j48189533061230_2_alg».proof.Proof.Gen.ReferenceIdeal
import proofs.«131904_j48189533061230_2_alg».proof.Proof.RefRun
import proofs.«131904_j48189533061230_2_alg».proof.Proof.RefRead
import proofs.«131904_j48189533061230_2_alg».proof.Proof.LossValue
import proofs.«131904_j48189533061230_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- So does the kernel program read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both programs, from memories agreeing on the arguments, end with the same scalar loss: the reference's last stage
    at the kernel's arguments. The kernel's run is the frame run with its result buffer read (LossValue.lean), the
    reference's is its run with the stage named and the arguments' agreement rewritten. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v50 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Gen.run_main (F := Ideal) m ρ)
    · exact ((h c).2 Cert.KernelIdeal.main_v35 (Pipeline.mem_restRefs_of Cert.KernelIdeal.main_v35 (by decide) (by decide))).trans
        (Cert.LossValue.result_eq m c)
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
  · refine (θ_run Cert.ReferenceIdeal.defs _ _).mono (fun _ h c => ⟨?_, (h c).2⟩)
      (Cert.ReferenceIdeal.ValueP.run (F := Ideal) m' ρ')
    rw [(h c).1, Cert.ReferenceIdeal.ReadP.val_main_v50_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
